-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S4096x1024 : Shape := ⟨2, ![4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8x2048x1024 .f32) (main_arg1 : FVec F S8x2048x1024 .f32) (main_arg2 : FVec F S4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S8x2048x1024 : Shape := ⟨3, ![8, 2048, 1024]⟩
abbrev S4096x1024 : Shape := ⟨2, ![4096, 1024]⟩
abbrev S8x2048x2048 : Shape := ⟨3, ![8, 2048, 2048]⟩
abbrev S1x1024x1024 : Shape := ⟨3, ![1, 1024, 1024]⟩
abbrev S1x512x1024 : Shape := ⟨3, ![1, 512, 1024]⟩
abbrev S2048x1024 : Shape := ⟨2, ![2048, 1024]⟩
abbrev S1x1024x512 : Shape := ⟨3, ![1, 1024, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4096x1024, .f32⟩
  | .hbm, ⟨3, _⟩ => ⟨S8x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S2048x1024, .f32⟩
  | .local _ .vmem, ⟨5, _⟩ => ⟨S1x1024x512, .f32⟩
  | .local _ .vmem, ⟨6, _⟩ => ⟨S1x1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_mult2 (i : grid0.Coords) : BitVec 32 :=
  let arg2 : BitVec 32 := BitVec.ofNat 32 (i 2).val
  let c512_i32 : BitVec 32 := 512#32
  let v2 : BitVec 32 := Scalar.muli arg2 c512_i32
  v2
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  let c0 : Index := 0#32
  ![v4.toNat, 0]
def k0_off2 (i : grid0.Coords) : Fin 2 → Nat :=
  let arg2 : BitVec 32 := BitVec.ofNat 32 (i 2).val
  let c512_i32 : BitVec 32 := 512#32
  let v2 : BitVec 32 := Scalar.muli arg2 c512_i32
  let v3 : BitVec 32 := v2
  let v6 : Index := Scalar.indexCast v3
  let c0_0 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  h_S1024x1024 : 0 < S1024x1024.numel
  h_S512x1024 : 0 < S512x1024.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  transposes_S512x1024_p1_0_S1024x512 : S512x1024.Transposes [1, 0] S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x1024_S1024x512_S1024x512_1_0_0_1_n_n_wf : DotDims.WF S1024x1024 S1024x512 S1024x512 [1] [0] [0] [1] [] []
  hrank0 : 0 < grid0.rank
  k0_mult1_dvd : ∀ i : grid0.Coords, 1024 ∣ (k0_mult1 i).toNat
  k0_mult2_dvd : ∀ i : grid0.Coords, 512 ∣ (k0_mult2 i).toNat
  k0_off1_inb : ∀ i : grid0.Coords, ∀ a, (k0_off1 i) a + S1024x1024.size a ≤ S2048x1024.size a
  k0_off2_inb : ∀ i : grid0.Coords, ∀ a, (k0_off2 i) a + S512x1024.size a ≤ S2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x1024.size a
  hwx0_2 : ∀ i : grid0.Coords, EltTy.bits .f32 = 32 ∨ (Rect.block (s := S4096x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x2048x2048.size a
  hwx0_3 : ∀ i : grid0.Coords, EltTy.bits .f32 = 32 ∨ (Rect.block (s := S8x2048x2048) S1x1024x512.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S4096x1024 : Shape := ⟨2, ![4096, 1024]⟩
abbrev S2048x1024 : Shape := ⟨2, ![2048, 1024]⟩
abbrev S8x2048x2048 : Shape := ⟨3, ![8, 2048, 2048]⟩
abbrev S1x2048x1024 : Shape := ⟨3, ![1, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S4096x1024, .f32⟩
  | .hbm, ⟨3, _⟩ => ⟨S2048x1024, .f32⟩
  | .hbm, ⟨4, _⟩ => ⟨S2048x1024, .f32⟩
  | .hbm, ⟨5, _⟩ => ⟨S8x2048x2048, .f32⟩
  | .hbm, ⟨6, _⟩ => ⟨S1x2048x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S4096x1024_S2048x1024_0_0 : S4096x1024.Slices ![0, 0] S2048x1024
  bcast_S2048x1024_S1x2048x1024_1_2 : S2048x1024.BroadcastsInDim S1x2048x1024 (![1, 2] : Fin 2 → Fin S1x2048x1024.rank)
  bcast_S1x2048x1024_S8x2048x1024_0_1_2 : S1x2048x1024.BroadcastsInDim S8x2048x1024 (![0, 1, 2] : Fin 3 → Fin S8x2048x1024.rank)
  transposes_S8x2048x2048_S8x2048x2048_0_2_1 : S8x2048x2048.Transposes [0, 2, 1] S8x2048x2048
  dot_S8x2048x1024_S2048x1024_S8x2048x2048_2_1_01_0_n_n_wf : DotDims.WF S8x2048x1024 S2048x1024 S8x2048x2048 [2] [1] [0, 1] [0] [] []

variable [Facts₀]

def dot_S8x2048x1024_S2048x1024_S8x2048x2048_2_1_01_0_n_n : DotDims S8x2048x1024 S2048x1024 S8x2048x2048 where
  lhsContracting := [2]
  rhsContracting := [1]
  lhsNonContracting := [0, 1]
  rhsNonContracting := [0]
  lhsBatch := []
  rhsBatch := []
  wf := dot_S8x2048x1024_S2048x1024_S8x2048x2048_2_1_01_0_n_n_wf

class Facts : Prop extends Facts₀ where

variable [Facts]
-- ==== Proof.Spec.lean ====
/-
  The function both programs compute, index by index, on the extended reals.

  With `e` the position table (4096 rows of width 1024), `q` and `k` the two activations (8 batches of 2048 rows of width 1024),

      logits b i j  =  ∑ d, q b i d * e j d  +  ∑ d, e i d * (k b j d + e j d)          (i, j < 2048)

  Only the first 2048 rows of `e` are read. The two sides reach this value by different roads — the
  kernel block by block (a 1024 × 512 tile of (i, j) per grid point, each tile two products over the full width 1024),
  the reference by two whole contractions of which the second is computed as `(k + e) · eᵀ` and then transposed — and the only law between
  them is the commutativity of the product of two extended reals, term by term under the second sum. No term is moved across a sum,
  so nothing here needs the inputs to be finite.
-/
import Idealize.ShloMosaic.PureOps.Ideal
import Idealize.ShloMosaic.Lib.ValueIdx

noncomputable section

namespace Cert.Logits

open Idealize.ShloMosaic Idealize.ShloMosaic.ValueIdx

/-- Row `i` (`i < 2048`) of the position table as a row of the full 4096-row table. -/
abbrev row4096 (i : Fin 2048) : Fin 4096 := ⟨i.val, by omega⟩

/-- The additive positional attention logit at batch `b`, query row `i`, key row `j`. -/
def logit (q k : (⟨3, ![8, 2048, 1024]⟩ : Shape).Idx → EReal) (e : (⟨2, ![4096, 1024]⟩ : Shape).Idx → EReal)
    (b : Fin 8) (i j : Fin 2048) : EReal :=
  (∑ d : Fin 1024, q (ix3 b i d) * e (ix2 (row4096 j) d))
    + ∑ d : Fin 1024, e (ix2 (row4096 i) d) * (k (ix3 b j d) + e (ix2 (row4096 j) d))

/-- The whole result array: entry `(b, i, j)` is `logit b i j`. -/
def logits (q k : (⟨3, ![8, 2048, 1024]⟩ : Shape).Idx → EReal) (e : (⟨2, ![4096, 1024]⟩ : Shape).Idx → EReal) :
    (⟨3, ![8, 2048, 2048]⟩ : Shape).Idx → EReal :=
  fun y => logit q k e (y 0) (y 1) (y 2)

theorem logits_ix3 (q k : (⟨3, ![8, 2048, 1024]⟩ : Shape).Idx → EReal) (e : (⟨2, ![4096, 1024]⟩ : Shape).Idx → EReal)
    (b : Fin 8) (i j : Fin 2048) : logits q k e (ix3 b i j) = logit q k e b i j := rfl

/-- The same value with the second product's factors in the other order: the form the reference's
    second contraction `(k + e) · eᵀ` takes. -/
theorem logit_comm (q k : (⟨3, ![8, 2048, 1024]⟩ : Shape).Idx → EReal) (e : (⟨2, ![4096, 1024]⟩ : Shape).Idx → EReal)
    (b : Fin 8) (i j : Fin 2048) :
    logit q k e b i j = (∑ d : Fin 1024, q (ix3 b i d) * e (ix2 (row4096 j) d))
      + ∑ d : Fin 1024, (k (ix3 b j d) + e (ix2 (row4096 j) d)) * e (ix2 (row4096 i) d) := by
  unfold logit
  congr 1
  exact Finset.sum_congr rfl fun d _ => mul_comm _ _

end Cert.Logits

end
-- ==== Proof.Tile.lean ====
/-
  One tile of the result, entry by entry, on the extended reals.

  At a grid point the body holds four blocks: `eq`, 1024 rows of the table (the query rows of the tile); `ek`, 512 rows of the
  table (the key rows of the tile); `qb`, the tile's 1024 query rows of one batch of `q`; `kb`, its 512 key rows of the same batch of `k`.
  It stores `qb · ekᵀ + eq · (kb + ek)ᵀ`. Each product runs on the matrix unit into a zero accumulator with operands narrowed to
  bf16; on the extended reals the narrowing is the identity and the product into zero is the plain sum over the width, so
  entry `(p, r)` of the stored tile is

      ∑ d, qb p d * ek r d  +  ∑ d, eq p d * (kb r d + ek r d).
-/
import proofs.«127471_j66151086293479_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The left operand of the tile product is read at the output's row. -/
theorem lhs_row (i : S1024x512.Idx) (k : dot_S1024x1024_S1024x512_S1024x512_1_0_0_1_n_n.contr.Idx) : (dot_S1024x1024_S1024x512_S1024x512_1_0_0_1_n_n.lhsIdx i k 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

/-- The right operand of the tile product is read at the output's column. -/
theorem rhs_col (i : S1024x512.Idx) (k : dot_S1024x1024_S1024x512_S1024x512_1_0_0_1_n_n.contr.Idx) : (dot_S1024x1024_S1024x512_S1024x512_1_0_0_1_n_n.rhsIdx i k 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- A 1024×1024 by 1024×512 product into the zero accumulator, at entry `(p, r)`: the sum over the shared width of
    the row's entries times the column's. -/
theorem product_apply (lhs : FVec Ideal S1024x1024 .bf16) (rhs : FVec Ideal S1024x512 .bf16) (p : Fin 1024) (r : Fin 512) :
    matmul (F := Ideal) dot_S1024x1024_S1024x512_S1024x512_1_0_0_1_n_n none lhs rhs (constant (F := Ideal) S1024x512 .f32 0x00000000#32) (ix2 p r)
      = ∑ d : Fin 1024, lhs (ix2 p d) * rhs (ix2 d r) := by
  simp only [matmul]
  rw [Ideal.matmul_constant_zero_apply, ← Equiv.sum_comp (contrEquiv1 dot_S1024x1024_S1024x512_S1024x512_1_0_0_1_n_n 1024 rfl rfl).symm]
  refine Finset.sum_congr rfl fun d _ => ?_
  have hd := contrEquiv1_symm_val dot_S1024x1024_S1024x512_S1024x512_1_0_0_1_n_n 1024 rfl rfl d
  have el : dot_S1024x1024_S1024x512_S1024x512_1_0_0_1_n_n.lhsIdx (ix2 p r) ((contrEquiv1 dot_S1024x1024_S1024x512_S1024x512_1_0_0_1_n_n 1024 rfl rfl).symm d) = ix2 p d := funext fun a => Fin.ext (by
    match a with
    | ⟨0, _⟩ => exact lhs_row _ _
    | ⟨1, _⟩ => exact (dot_S1024x1024_S1024x512_S1024x512_1_0_0_1_n_n.lhsIdx_val_of_single rfl _ _).trans hd)
  have er : dot_S1024x1024_S1024x512_S1024x512_1_0_0_1_n_n.rhsIdx (ix2 p r) ((contrEquiv1 dot_S1024x1024_S1024x512_S1024x512_1_0_0_1_n_n 1024 rfl rfl).symm d) = ix2 d r := funext fun a => Fin.ext (by
    match a with
    | ⟨0, _⟩ => exact (dot_S1024x1024_S1024x512_S1024x512_1_0_0_1_n_n.rhsIdx_val_of_single rfl _ _).trans hd
    | ⟨1, _⟩ => exact rhs_col _ _)
  rw [el, er]

/-- The tile as a function of the four blocks. -/
def tile (eq : Vec Ideal S1024x1024 .f32) (ek : Vec Ideal S512x1024 .f32) (qb : Vec Ideal S1x1024x1024 .f32)
    (kb : Vec Ideal S1x512x1024 .f32) (p : Fin 1024) (r : Fin 512) : EReal :=
  (∑ d : Fin 1024, qb (ix3 (0 : Fin 1) p d) * ek (ix2 r d))
    + ∑ d : Fin 1024, eq (ix2 p d) * (kb (ix3 (0 : Fin 1) r d) + ek (ix2 r d))

/-- What the body stores, at entry `(p, r)` of its one batch, is the tile. -/
theorem stored_apply (eq : Vec Ideal S1024x1024 .f32) (ek : Vec Ideal S512x1024 .f32) (qb : Vec Ideal S1x1024x1024 .f32)
    (kb : Vec Ideal S1x512x1024 .f32) (u : Fin 1) (p : Fin 1024) (r : Fin 512) :
    k0_pay1 (F := Ideal) eq ek qb kb (ix3 u p r) = tile eq ek qb kb p r := by
  unfold k0_pay1 tile
  refine (shapeCast_ab_1ab_apply _ _ u p r).trans ?_
  refine (addf_apply _ _ _).trans ?_
  refine congrArg₂ (· + ·) ?_ ?_
  · refine (product_apply _ _ p r).trans (Finset.sum_congr rfl fun d _ => ?_)
    refine congrArg₂ (· * ·) ?_ ?_
    · show shapeCast S1024x1024 qb _ (ix2 p d) = _
      exact shapeCast_1ab_ab_apply _ _ p d
    · exact (transpose_ix2_apply _ _ d r).trans rfl
  · refine (product_apply _ _ p r).trans (Finset.sum_congr rfl fun d _ => ?_)
    refine congrArg₂ (· * ·) ?_ ?_
    · rfl
    · refine (transpose_ix2_apply _ _ d r).trans ?_
      show shapeCast S512x1024 kb _ (ix2 r d) + ek (ix2 r d) = _
      exact congrArg (· + ek (ix2 r d)) (shapeCast_1ab_ab_apply _ _ r d)

end Cert.KernelIdeal.Tile

end
-- ==== Proof.Blocks.lean ====
/-
  What the body holds at a grid point, and where in the argument arrays it comes from.

  The grid is 8 batches × 2 query tiles × 4 key tiles. At point `t` write `(b, qi, ki)` for the output window's block index. Then
    • the `q` window's block is batch `b`, rows `1024 qi … 1024 qi + 1023`, the full width;
    • the `k` window's block is batch `b`, rows `512 ki … 512 ki + 511`, the full width;
    • the table's window never moves: its block is rows `0 … 2047` of the table, and the body cuts from it the 1024 rows from
      `1024 qi` (the query rows' positions) and the 512 rows from `512 ki` (the key rows' positions).
  The relations between the printed index maps and offsets are decided once over the 64 points.
-/
import proofs.«127471_j66151086293479_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The input windows' block indices and the body's two row offsets, in terms of the output window's block index
    `(b, qi, ki)`, and that index's ranges: decided over the grid. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = win0_3.index t (2 : Fin 3)
    ∧ win0_1.index t (2 : Fin 3) = 0
    ∧ win0_2.index t (0 : Fin 2) = 0 ∧ win0_2.index t (1 : Fin 2) = 0
    ∧ k0_off1 (grid0.coords t) (0 : Fin 2) = win0_3.index t (1 : Fin 3) * 1024 ∧ k0_off1 (grid0.coords t) (1 : Fin 2) = 0
    ∧ k0_off2 (grid0.coords t) (0 : Fin 2) = win0_3.index t (2 : Fin 3) * 512 ∧ k0_off2 (grid0.coords t) (1 : Fin 2) = 0
    ∧ win0_3.index t (0 : Fin 3) < 8 ∧ win0_3.index t (1 : Fin 3) < 2 ∧ win0_3.index t (2 : Fin 3) < 4 :=
  (by decide +kernel : ∀ t : Fin grid0.N, _)

/-- Every block of the result array is some point's. -/
theorem idx_onto : ∀ (b : Fin 8) (qi : Fin 2) (ki : Fin 4), ∃ t : Fin cfg0.N, win0_3.index t = ![b.val, qi.val, ki.val] :=
  (by decide +kernel : ∀ (b : Fin 8) (qi : Fin 2) (ki : Fin 4), ∃ t : Fin grid0.N, win0_3.index t = ![b.val, qi.val, ki.val])

/-- The `q` window's block at point `t`, entry `(0, p, d)`, is `q` at batch `b`, row `1024 qi + p`, column `d`. -/
theorem qblk_apply (c : Dev nD) (t : Fin cfg0.N) (p d : Fin 1024) (j : S8x2048x1024.Idx)
    (h0 : (j 0).val = win0_3.index t (0 : Fin 3)) (h1 : (j 1).val = win0_3.index t (1 : Fin 3) * 1024 + p.val)
    (h2 : (j 2).val = d.val) :
    (iblk m c 0 t : Vec F S1x1024x1024 .f32) (ix3 (0 : Fin 1) p d) = V m c main_arg0 j := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = (j 0).val; rw [e0, h0]; omega
  | ⟨1, _⟩ => show win0_0.index t (1 : Fin 3) * 1024 + 1 * p.val = (j 1).val; rw [e1, h1]; omega
  | ⟨2, _⟩ => show win0_0.index t (2 : Fin 3) * 1024 + 1 * d.val = (j 2).val; rw [e2, h2]; omega

/-- The `k` window's block at point `t`, entry `(0, r, d)`, is `k` at batch `b`, row `512 ki + r`, column `d`. -/
theorem kblk_apply (c : Dev nD) (t : Fin cfg0.N) (r : Fin 512) (d : Fin 1024) (j : S8x2048x1024.Idx)
    (h0 : (j 0).val = win0_3.index t (0 : Fin 3)) (h1 : (j 1).val = win0_3.index t (2 : Fin 3) * 512 + r.val)
    (h2 : (j 2).val = d.val) :
    (iblk m c 1 t : Vec F S1x512x1024 .f32) (ix3 (0 : Fin 1) r d) = V m c main_arg1 j := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = (j 0).val; rw [e0, h0]; omega
  | ⟨1, _⟩ => show win0_1.index t (1 : Fin 3) * 512 + 1 * r.val = (j 1).val; rw [e1, h1]; omega
  | ⟨2, _⟩ => show win0_1.index t (2 : Fin 3) * 1024 + 1 * d.val = (j 2).val; rw [e2, h2]; omega

/-- The table's window at any point, entry `(s, d)`, is the table at row `s`, column `d`. -/
theorem eblk_apply (c : Dev nD) (t : Fin cfg0.N) (s : Fin 2048) (d : Fin 1024) (j : S4096x1024.Idx)
    (h0 : (j 0).val = s.val) (h1 : (j 1).val = d.val) :
    (iblk m c 2 t : Vec F S2048x1024 .f32) (ix2 s d) = V m c main_arg2 j := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 2048 + 1 * s.val = (j 0).val; rw [e0, h0]; omega
  | ⟨1, _⟩ => show win0_2.index t (1 : Fin 2) * 1024 + 1 * d.val = (j 1).val; rw [e1, h1]; omega

/-- Rows cut from a 2048-row block: a load of `n` rows of full width from row offset `off 0` reads, at `(p, d)`, the
    block at `(off 0 + p, d)`. -/
theorem rows_apply {n : Nat} (X : Vec F S2048x1024 .f32) (off : Fin 2 → Nat)
    (inb : ∀ a, off a + (⟨2, ![n, 1024]⟩ : Shape).size a ≤ S2048x1024.size a) (h1 : off (1 : Fin 2) = 0)
    (p : Fin n) (d : Fin 1024) (s : Fin 2048) (hs : s.val = off (0 : Fin 2) + p.val) :
    View.ld X (Rect.unit (s := S2048x1024) off (⟨2, ![n, 1024]⟩ : Shape).size inb) (ix2 p d) = X (ix2 s d) := by
  show X _ = X _
  congr 1
  funext a
  apply Fin.ext
  match a with
  | ⟨0, _⟩ => show off (0 : Fin 2) + 1 * p.val = s.val; rw [hs]; omega
  | ⟨1, _⟩ => show off (1 : Fin 2) + 1 * d.val = d.val; rw [h1]; omega

end Cert.KernelIdeal.Blocks

end
-- ==== Proof.KernelLogits.lean ====
/-
  The kernel's result array is the array of positional logits.

  At every grid point the body overwrites the output tile with one stored value (a function of the four blocks it loads:
  `Cert.KernelIdeal.Tile.tile`), and every point writes its tile back. Entry `(p, r)` of the tile at the point whose output block
  index is `(b, qi, ki)` is the logit of batch `b`, query row `1024 qi + p`, key row `512 ki + r`: the `q` rows and the `k` rows are
  the windows' blocks, and the two table slices are rows `1024 qi + p` and `512 ki + r` of the table (`Cert.KernelIdeal.Blocks`).
  The 64 tiles are disjoint and fill the 8 × 2048 × 2048 array, so after the run the array holds the logits everywhere.
-/
import proofs.«127471_j66151086293479_2_alg».proof.Proof.Gen.KernelIdeal.Value
import proofs.«127471_j66151086293479_2_alg».proof.Proof.Spec
import proofs.«127471_j66151086293479_2_alg».proof.Proof.Tile
import proofs.«127471_j66151086293479_2_alg».proof.Proof.Blocks

noncomputable section

namespace Cert.KernelIdeal.KernelLogits

open Cert.KernelIdeal Cert.KernelIdeal.Gen Idealize.ShloMosaic Idealize.ShloMosaic.TcCoe Idealize.SL.Sem
open Idealize.ShloMosaic.Pipeline (Dat)
open Idealize.ShloMosaic.ValueIdx Cert.Logits

theorem hz3 : (![0, 0, 0] : Fin 3 → Nat) = fun _ => 0 := funext fun a => by fin_cases a <;> rfl

section AnyFloat
variable {F : FTy → Type} [FloatOps F]

/-- What the body leaves in the output's staging buffer: its one store covers the buffer, so the buffer holds the stored
    value, computed from the `q` block `x0`, the `k` block `x1` and two row ranges of the table block `x2`. -/
theorem stored_eq (c : Dev nD) (i : grid0.Coords) (arg3 : Memref sig .tc .vmem S1x1024x1024 .f32) (harg3 : arg3.IsWhole)
    (arg4 : Memref sig .tc .vmem S1x512x1024 .f32) (harg4 : arg4.IsWhole) (arg5 : Memref sig .tc .vmem S2048x1024 .f32) (harg5 : arg5.IsWhole)
    (arg6 : Memref sig .tc .vmem S1x1024x512 .f32) (harg6 : arg6.IsWhole)
    (x0 : Vec F S1x1024x1024 .f32) (x1 : Vec F S1x512x1024 .f32) (x2 : Vec F S2048x1024 .f32) :
    out0_A_3 c i arg3 harg3 arg4 harg4 arg5 harg5 arg6 harg6 x0 x1 x2
      = k0_pay1 (View.ld x2 (Rect.unit (s := S2048x1024) (k0_off1 i) S1024x1024.size (Facts₀.k0_off1_inb i)))
          (View.ld x2 (Rect.unit (s := S2048x1024) (k0_off2 i) S512x1024.size (Facts₀.k0_off2_inb i))) x0 x1 := by
  unfold out0_A_3
  rw [View.read_writes_eq_canon _ _ _ (cover0_A_3 c i arg3 harg3 arg4 harg4 arg5 harg5 arg6 harg6 x0 x1 x2)]
  unfold kernelRun0_A
  dsimp only
  rw [View.canon_unit_zero hz3]
  simp only [View.readAt_eq_ld, harg3.read_unread, harg4.read_unread, harg5.read_unread,
    View.ld_unit_zero (S := S1x1024x1024) hz3, View.ld_unit_zero (S := S1x512x1024) hz3]

end AnyFloat

variable (m : (ℓ : Loc nD τ sig) → Buf (Elt Ideal) ℓ) (ρ : Dev nD → PrngReg)

/-- The result array as a function of the argument arrays as the region finds them. -/
abbrev result (c : Dev nD) : S8x2048x2048.Idx → EReal :=
  logits (V m c main_arg0) (V m c main_arg1) (V m c main_arg2)

/-- Entry `(p, r)` of the tile point `t` leaves is the logit at the array index `i` whose coordinates are the tile's
    block index `(b, qi, ki)` scaled by the tile sizes plus `(0, p, r)`. -/
theorem stored_at (c : Dev nD) (t : Fin cfg0.N) (u : Fin 1) (p : Fin 1024) (r : Fin 512) (i : S8x2048x2048.Idx)
    (h0 : (i 0).val = win0_3.index t (0 : Fin 3)) (h1 : (i 1).val = win0_3.index t (1 : Fin 3) * 1024 + p.val)
    (h2 : (i 2).val = win0_3.index t (2 : Fin 3) * 512 + r.val) :
    outsAt0 m c t (ix3 u p r) = result m c i := by
  obtain ⟨b, qrow, krow, rfl⟩ : ∃ (b : Fin 8) (qrow krow : Fin 2048), i = ix3 b qrow krow := ⟨i 0, i 1, i 2, eq_ix3 i⟩
  obtain ⟨-, -, -, -, -, -, -, -, o1, o1', o2, o2', -, lq, lk⟩ := Blocks.idx_facts t
  unfold outsAt0
  rw [stored_eq]
  refine (Tile.stored_apply
    (View.ld (iblk m c 2 t) (Rect.unit (s := S2048x1024) (k0_off1 (grid0.coords t)) S1024x1024.size (Facts₀.k0_off1_inb (grid0.coords t))))
    (View.ld (iblk m c 2 t) (Rect.unit (s := S2048x1024) (k0_off2 (grid0.coords t)) S512x1024.size (Facts₀.k0_off2_inb (grid0.coords t))))
    (iblk m c 0 t) (iblk m c 1 t) u p r).trans ?_
  show _ = logit (V m c main_arg0) (V m c main_arg1) (V m c main_arg2) b qrow krow
  have hq : qrow.val = win0_3.index t (1 : Fin 3) * 1024 + p.val := h1
  have hk : krow.val = win0_3.index t (2 : Fin 3) * 512 + r.val := h2
  -- the two table slices, entry by entry
  have eq_row : ∀ d : Fin 1024,
      View.ld (iblk m c 2 t : Vec Ideal S2048x1024 .f32) (Rect.unit (s := S2048x1024) (k0_off1 (grid0.coords t)) S1024x1024.size (Facts₀.k0_off1_inb (grid0.coords t))) (ix2 p d)
        = V m c main_arg2 (ix2 (row4096 qrow) d) := fun d =>
    (Blocks.rows_apply (iblk m c 2 t) _ _ o1' p d qrow (by rw [o1]; exact hq)).trans
      (Blocks.eblk_apply m c t qrow d (ix2 (row4096 qrow) d) rfl rfl)
  have ek_row : ∀ d : Fin 1024,
      View.ld (iblk m c 2 t : Vec Ideal S2048x1024 .f32) (Rect.unit (s := S2048x1024) (k0_off2 (grid0.coords t)) S512x1024.size (Facts₀.k0_off2_inb (grid0.coords t))) (ix2 r d)
        = V m c main_arg2 (ix2 (row4096 krow) d) := fun d =>
    (Blocks.rows_apply (iblk m c 2 t) _ _ o2' r d krow (by rw [o2]; exact hk)).trans
      (Blocks.eblk_apply m c t krow d (ix2 (row4096 krow) d) rfl rfl)
  unfold Tile.tile logit
  refine congrArg₂ (· + ·) (Finset.sum_congr rfl fun d _ => ?_) (Finset.sum_congr rfl fun d _ => ?_)
  · rw [ek_row d, Blocks.qblk_apply m c t p d (ix3 b qrow d) h0 hq rfl]
  · rw [ek_row d, eq_row d, Blocks.kblk_apply m c t r d (ix3 b krow d) h0 hk rfl]

/-- What point `t` writes back is block `t` of the logits. -/
theorem flushed_eq (c : Dev nD) (t : Fin cfg0.N) :
    (dats m 0 c).flushed 3 t = ((cfg0.win 3).blk t).view.read (Elt Ideal) (result m c) := by
  rw [Value.flushed3]
  refine funext fun (y : S1x1024x512.Idx) => ?_
  obtain ⟨u, p, r, rfl⟩ : ∃ (u : Fin 1) (p : Fin 1024) (r : Fin 512), y = ix3 u p r := ⟨y 0, y 1, y 2, eq_ix3 y⟩
  show outsAt0 m c t (ix3 u p r) = result m c (((cfg0.win 3).blk t).view.emb (ix3 u p r))
  have hu : u.val = 0 := by omega
  refine stored_at m c t u p r _ ?_ ?_ ?_
  · show win0_3.index t (0 : Fin 3) * 1 + 1 * u.val = win0_3.index t (0 : Fin 3); omega
  · show win0_3.index t (1 : Fin 3) * 1024 + 1 * p.val = win0_3.index t (1 : Fin 3) * 1024 + p.val; omega
  · show win0_3.index t (2 : Fin 3) * 512 + 1 * r.val = win0_3.index t (2 : Fin 3) * 512 + r.val; omega

/-- An index of the array is in point `t`'s block iff each coordinate is in the block's range on its axis. -/
theorem mem_blk (t : Fin cfg0.N) (i : S8x2048x2048.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v0).slice (win0_3.rect t)).set ↔ _
  rw [View.set_slice_whole, Rect.mem_set_unit]
  exact Iff.rfl

/-- Every index of the array is in the block of the point `(b, row / 1024, column / 512)`. -/
theorem cover (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := Blocks.idx_onto ⟨(i 0).val, hi0⟩ ⟨(i 1).val / 1024, by omega⟩ ⟨(i 2).val / 512, by omega⟩
  have q0 : win0_3.index t (0 : Fin 3) = (i 0).val := congrFun ht 0
  have q1 : win0_3.index t (1 : Fin 3) = (i 1).val / 1024 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-- The array after the run. -/
theorem final (c : Dev nD) : (dats m 0 c).arrAt 3 cfg0.N = result m c :=
  (dats m 0 c).arrAt_eq_of_cover 3 (result m c) (fun t _ => flushed_eq m c t) cover

/-- The kernel's run: the result array ends at the logits of the argument arrays, which end unchanged. -/
theorem run : θ_run defs (onTc (τ := τ) (main (F := Ideal))) ⟨m, fun _ => 0, ρ⟩ fun r => ∀ c : Dev nD,
      r.2.mem ((c : Thread nD τ).loc main_v0) = logits (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelLogits

end
-- ==== Proof.RefLogits.lean ====
/-
  The reference's result, index by index, is the positional logit.

  The reference takes the first 2048 rows of the table twice (they are one slice), contracts `q` with them over the width,
  adds the same rows to `k` batch by batch, contracts THAT sum with the rows — which gives entry `(b, j, i)`, key row before
  query row —, swaps the last two axes and adds. Read at `(b, i, j)` every layout step only renames an index:

      ∑ d, q b i d * e j d  +  ∑ d, (k b j d + e j d) * e i d

  which is `Cert.Logits.logit` with the second product's factors exchanged (`Cert.Logits.logit_comm`).
-/
import proofs.«127471_j66151086293479_2_alg».proof.Proof.Gen.ReferenceIdeal.Read
import proofs.«127471_j66151086293479_2_alg».proof.Proof.Spec

noncomputable section

namespace Cert.ReferenceIdeal.RefValue

open Cert.ReferenceIdeal Cert.ReferenceIdeal.Read Idealize.ShloMosaic Idealize.ShloMosaic.ValueIdx Cert.Logits

/-- The reference's result array is the array of positional logits of its three arguments. -/
theorem result_eq (x0 x1 : (⟨S8x2048x1024, .f32⟩ : BufTy).Contents (Elt Ideal)) (x2 : (⟨S4096x1024, .f32⟩ : BufTy).Contents (Elt Ideal)) :
    val_main_v8 (F := Ideal) x0 x1 x2 = logits x0 x1 x2 := by
  funext y
  obtain ⟨b, i, j, rfl⟩ : ∃ (b : Fin 8) (i j : Fin 2048), y = ix3 b i j := ⟨y 0, y 1, y 2, eq_ix3 y⟩
  -- the index every layout step reads, in coordinates
  have eq : ∀ d : Fin 1024, lidx_main_v2 (ix3 b i j) d = ix3 b i d := fun d => funext fun a => Fin.ext (by
    match a with | ⟨0, _⟩ => rfl | ⟨1, _⟩ => rfl | ⟨2, _⟩ => rfl)
  have eej : ∀ d : Fin 1024, idx_main_v1 (ridx_main_v2 (ix3 b i j) d) = ix2 (row4096 j) d := fun d => funext fun a => Fin.ext (by
    match a with | ⟨0, _⟩ => rfl | ⟨1, _⟩ => rfl)
  have ek : ∀ d : Fin 1024, lidx_main_v6 (idx_main_v7 (ix3 b i j)) d = ix3 b j d := fun d => funext fun a => Fin.ext (by
    match a with | ⟨0, _⟩ => rfl | ⟨1, _⟩ => rfl | ⟨2, _⟩ => rfl)
  have ekj : ∀ d : Fin 1024, idx_main_v1 (idx_main_v3 (idx_main_v4 (ix3 b j d))) = ix2 (row4096 j) d := fun d => funext fun a => Fin.ext (by
    match a with | ⟨0, _⟩ => rfl | ⟨1, _⟩ => rfl)
  have eei : ∀ d : Fin 1024, idx_main_v0 (ridx_main_v6 (idx_main_v7 (ix3 b i j)) d) = ix2 (row4096 i) d := fun d => funext fun a => Fin.ext (by
    match a with | ⟨0, _⟩ => rfl | ⟨1, _⟩ => rfl)
  rw [logits_ix3, logit_comm, val_main_v8_apply, val_main_v2_apply, val_main_v7_apply, val_main_v6_apply]
  simp only [val_main_v1_apply, val_main_v5_apply, val_main_v4_apply, val_main_v3_apply, val_main_v0_apply,
    eq, eej, ek, ekj, eei, Ideal.addf_def]

end Cert.ReferenceIdeal.RefValue

end
-- ==== Proof.lean ====
/-
  The certificate of the additive positional attention logits.

  Both programs compute, on the extended reals,

      logits b i j  =  ∑ d, q b i d * e j d  +  ∑ d, e i d * (k b j d + e j d)

  from `q`, `k` (8 × 2048 × 1024) and the first 2048 rows of the table `e` (`Cert.Logits.logits`, Proof/Spec.lean).
    • The kernel tiles the (i, j) plane 1024 × 512, and per tile forms the two products over the full width on the matrix unit;
      its result array is `logits` (Proof/KernelLogits.lean, over one tile's value Proof/Tile.lean and the blocks' positions
      Proof/Blocks.lean).
    • The reference forms the two contractions whole, the second as `(k + e) · eᵀ` transposed; its result array is `logits`
      by the commutativity of the product under the second sum (Proof/RefLogits.lean).
  The three frames are the programs' runs with the result dropped; the idealization rewrote nothing, so `preserves` is `True`.
  The inputs' finiteness is not used.
-/
import proofs.«127471_j66151086293479_2_alg».proof.Defs
import proofs.«127471_j66151086293479_2_alg».proof.Proof.Gen.Kernel
import proofs.«127471_j66151086293479_2_alg».proof.Proof.Gen.Kernel.Frame
import proofs.«127471_j66151086293479_2_alg».proof.Proof.Gen.KernelIdeal
import proofs.«127471_j66151086293479_2_alg».proof.Proof.Gen.KernelIdeal.Frame
import proofs.«127471_j66151086293479_2_alg».proof.Proof.Gen.KernelIdeal.Value
import proofs.«127471_j66151086293479_2_alg».proof.Proof.Gen.ReferenceIdeal
import proofs.«127471_j66151086293479_2_alg».proof.Proof.Gen.ReferenceIdeal.Run
import proofs.«127471_j66151086293479_2_alg».proof.Proof.Gen.ReferenceIdeal.Read
import proofs.«127471_j66151086293479_2_alg».proof.Proof.Gen.Pre_finite_inputs
import proofs.«127471_j66151086293479_2_alg».proof.Proof.KernelLogits
import proofs.«127471_j66151086293479_2_alg».proof.Proof.RefLogits
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `q`, `k` and the table, both result arrays end at the logits of those three arrays. -/
theorem algebraic : Cert.algebraic_KernelIdeal_ReferenceIdeal := by
  intro m ρ m' ρ' _ hagree
  refine ⟨_, Cert.KernelIdeal.KernelLogits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
